-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x4096 : Shape := ⟨3, ![4, 4096, 4096]⟩
abbrev S4096 : Shape := ⟨1, ![4096]⟩
abbrev S_ : Shape := ⟨0, ![]⟩

class Facts : Prop where
  bcast_S_S4x4096x4096 : S_.BroadcastsInDim S4x4096x4096 (![] : Fin 0 → Fin S4x4096x4096.rank)
  reducesTo_S4x4096x4096_S_d0_1_2 : S4x4096x4096.ReducesTo [0, 1, 2] S_
  h_S_ : 0 < S_.numel
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S4x4096x4096 .f32) (main_arg1 : FVec F S4096 .f32) : IVec S_ 1 :=
  let main_v0 : FVec F S4x4096x4096 .f32 := Host.absf main_arg0
  let main_cst : FVec F S_ .f32 := constant S_ .f32 0x7F800000#32
  let main_v1 : FVec F S4x4096x4096 .f32 := broadcastInDim S4x4096x4096 ![] bcast_S_S4x4096x4096 main_cst
  let main_v2 : IVec S4x4096x4096 1 := cmpf .olt main_v0 main_v1
  let main_c : IVec S_ 1 := constantI S_ 1 1#1
  let main_v3 : IVec S_ 1 := (fun x v => Host.reduce IntOp.andi x v reducesTo_S4x4096x4096_S_d0_1_2 h_S_) main_v2 main_c
  let main_v4 : FVec F S4096 .f32 := Host.absf main_arg1
  let main_cst_0 : FVec F S_ .f32 := constant S_ .f32 0x7F800000#32
  let main_v5 : FVec F S4096 .f32 := broadcastInDim S4096 ![] bcast_S_S4096 main_cst_0
  let main_v6 : IVec S4096 1 := cmpf .olt main_v4 main_v5
  let main_c_1 : IVec S_ 1 := constantI S_ 1 1#1
  let main_v7 : IVec S_ 1 := (fun x v => Host.reduce IntOp.andi x v reducesTo_S4096_S_d0 h_S_) main_v6 main_c_1
  let main_v8 : IVec S_ 1 := andi main_v3 main_v7
  main_v8
-- ==== Kernel.lean ====
abbrev S4x4096x4096 : Shape := ⟨3, ![4, 4096, 4096]⟩
abbrev S4096 : Shape := ⟨1, ![4096]⟩
abbrev S16384x4096 : Shape := ⟨2, ![16384, 4096]⟩
abbrev S1x4096 : Shape := ⟨2, ![1, 4096]⟩
abbrev S_ : Shape := ⟨0, ![]⟩
abbrev S256x4096 : Shape := ⟨2, ![256, 4096]⟩
abbrev S256 : Shape := ⟨1, ![256]⟩
abbrev S256x1 : Shape := ⟨2, ![256, 1]⟩

abbrev nBuf : Space → Nat
  | .hbm => 10
  | .vmem => 5
  | .smem => 0
  | _ => 0

abbrev bufTy : (tb : Table) → Fin (tcTables nBuf tb) → BufTy
  | .hbm, ⟨0, _⟩ => ⟨S4x4096x4096, .f32⟩
  | .hbm, ⟨1, _⟩ => ⟨S4096, .f32⟩
  | .hbm, ⟨2, _⟩ => ⟨S16384x4096, .f32⟩
  | .hbm, ⟨3, _⟩ => ⟨S1x4096, .f32⟩
  | .hbm, ⟨4, _⟩ => ⟨S_, .f32⟩
  | .hbm, ⟨5, _⟩ => ⟨S1x4096, .f32⟩
  | .hbm, ⟨6, _⟩ => ⟨S1x4096, .f32⟩
  | .hbm, ⟨7, _⟩ => ⟨S1x4096, .f32⟩
  | .hbm, ⟨8, _⟩ => ⟨S16384x4096, .f32⟩
  | .hbm, ⟨9, _⟩ => ⟨S4x4096x4096, .f32⟩
  | .local _ .vmem, ⟨0, _⟩ => ⟨S256x4096, .f32⟩
  | .local _ .vmem, ⟨1, _⟩ => ⟨S256x4096, .f32⟩
  | .local _ .vmem, ⟨2, _⟩ => ⟨S1x4096, .f32⟩
  | .local _ .vmem, ⟨3, _⟩ => ⟨S256x4096, .f32⟩
  | .local _ .vmem, ⟨4, _⟩ => ⟨S256x4096, .f32⟩
  | _, _ => ⟨S4x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S4x4096x4096_S16384x4096 : S4x4096x4096.ShapeCasts S16384x4096
  shapeCasts_S4096_S1x4096 : S4096.ShapeCasts S1x4096
  bcast_S_S1x4096 : S_.BroadcastsInDim S1x4096 (![] : Fin 0 → Fin S1x4096.rank)
  inb_S256x4096_S256x4096_0_0 : ∀ a, (![0, 0] : Fin 2 → Nat) a + S256x4096.size a ≤ S256x4096.size a
  h_S256x4096 : 0 < S256x4096.numel
  shapeCasts_S256x4096_S256x4096 : S256x4096.ShapeCasts S256x4096
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  reduces_S256x4096_S256 : S256x4096.Reduces [1] S256
  shapeCasts_S256_S256x1 : S256.ShapeCasts S256x1
  broadcasts_S1x4096_S256x4096 : S1x4096.Broadcasts S256x4096
  broadcasts_S256x1_S256x4096 : S256x1.Broadcasts S256x4096
  shapeCasts_S16384x4096_S4x4096x4096 : S16384x4096.ShapeCasts S4x4096x4096
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S16384x4096.size a
  hwx0_0 : ∀ i : grid0.Coords, EltTy.bits .f32 = 32 ∨ (Rect.block (s := S16384x4096) S256x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x4096.size a ≤ S1x4096.size a
  hwx0_1 : ∀ i : grid0.Coords, EltTy.bits .f32 = 32 ∨ (Rect.block (s := S1x4096) S1x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x4096.size a ≤ S16384x4096.size a
  hwx0_2 : ∀ i : grid0.Coords, EltTy.bits .f32 = 32 ∨ (Rect.block (s := S16384x4096) S256x4096.size (cc0_transform_2 i) (hinb0_2 i)).WholeWords (EltTy.packing .f32)

variable [Facts₀]

abbrev win0_0 : Pipeline.Window sig grid0 :=
  Pipeline.Window.ofSpec (Memref.whole main_v0) S256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S1x4096.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v5) S256x4096.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4x4096x4096 : Shape := ⟨3, ![4, 4096, 4096]⟩
abbrev S4096 : Shape := ⟨1, ![4096]⟩
abbrev S_ : Shape := ⟨0, ![]⟩
abbrev S4x4096 : Shape := ⟨2, ![4, 4096]⟩
abbrev S4x4096x1 : Shape := ⟨3, ![4, 4096, 1]⟩
abbrev S1x1x4096 : Shape := ⟨3, ![1, 1, 4096]⟩

abbrev nBuf : Space → Nat
  | .hbm => 39
  | .vmem => 0
  | .smem => 0
  | _ => 0

abbrev bufTy : (tb : Table) → Fin (tcTables nBuf tb) → BufTy
  | .hbm, ⟨0, _⟩ => ⟨S4x4096x4096, .f32⟩
  | .hbm, ⟨1, _⟩ => ⟨S4096, .f32⟩
  | .hbm, ⟨2, _⟩ => ⟨S_, .f32⟩
  | .hbm, ⟨3, _⟩ => ⟨S4x4096x4096, .f32⟩
  | .hbm, ⟨4, _⟩ => ⟨S4x4096x4096, .f32⟩
  | .hbm, ⟨5, _⟩ => ⟨S4x4096x4096, .f32⟩
  | .hbm, ⟨6, _⟩ => ⟨S_, .f32⟩
  | .hbm, ⟨7, _⟩ => ⟨S4096, .f32⟩
  | .hbm, ⟨8, _⟩ => ⟨S4096, .f32⟩
  | .hbm, ⟨9, _⟩ => ⟨S4096, .f32⟩
  | .hbm, ⟨10, _⟩ => ⟨S4x4096x4096, .f32⟩
  | .hbm, ⟨11, _⟩ => ⟨S_, .f32⟩
  | .hbm, ⟨12, _⟩ => ⟨S4x4096x4096, .f32⟩
  | .hbm, ⟨13, _⟩ => ⟨S4x4096x4096, .f32⟩
  | .hbm, ⟨14, _⟩ => ⟨S4x4096x4096, .f32⟩
  | .hbm, ⟨15, _⟩ => ⟨S_, .f32⟩
  | .hbm, ⟨16, _⟩ => ⟨S4x4096, .f32⟩
  | .hbm, ⟨17, _⟩ => ⟨S4x4096x1, .f32⟩
  | .hbm, ⟨18, _⟩ => ⟨S_, .f32⟩
  | .hbm, ⟨19, _⟩ => ⟨S4x4096x1, .f32⟩
  | .hbm, ⟨20, _⟩ => ⟨S4x4096x1, .f32⟩
  | .hbm, ⟨21, _⟩ => ⟨S4x4096x1, .f32⟩
  | .hbm, ⟨22, _⟩ => ⟨S_, .f32⟩
  | .hbm, ⟨23, _⟩ => ⟨S4x4096x1, .f32⟩
  | .hbm, ⟨24, _⟩ => ⟨S4x4096x1, .f32⟩
  | .hbm, ⟨25, _⟩ => ⟨S4x4096x1, .f32⟩
  | .hbm, ⟨26, _⟩ => ⟨S4x4096x1, .f32⟩
  | .hbm, ⟨27, _⟩ => ⟨S_, .f32⟩
  | .hbm, ⟨28, _⟩ => ⟨S4x4096x1, .f32⟩
  | .hbm, ⟨29, _⟩ => ⟨S4x4096x1, .f32⟩
  | .hbm, ⟨30, _⟩ => ⟨S1x1x4096, .f32⟩
  | .hbm, ⟨31, _⟩ => ⟨S4x4096x4096, .f32⟩
  | .hbm, ⟨32, _⟩ => ⟨S4x4096x4096, .f32⟩
  | .hbm, ⟨33, _⟩ => ⟨S4x4096x4096, .f32⟩
  | .hbm, ⟨34, _⟩ => ⟨S4x4096x4096, .f32⟩
  | .hbm, ⟨35, _⟩ => ⟨S4x4096x4096, .f32⟩
  | .hbm, ⟨36, _⟩ => ⟨S_, .f32⟩
  | .hbm, ⟨37, _⟩ => ⟨S4x4096x4096, .f32⟩
  | .hbm, ⟨38, _⟩ => ⟨S4x4096x4096, .f32⟩
  | _, _ => ⟨S4x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_2 : Ref sig .tc := ⟨.hbm, 15, rfl⟩
abbrev main_v10 : Ref sig .tc := ⟨.hbm, 16, rfl⟩
abbrev main_v11 : Ref sig .tc := ⟨.hbm, 17, rfl⟩
abbrev main_cst_3 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_4 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_5 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_cst_6 : Ref sig .tc := ⟨.hbm, 36, rfl⟩
abbrev main_v27 : Ref sig .tc := ⟨.hbm, 37, rfl⟩
abbrev main_v28 : Ref sig .tc := ⟨.hbm, 38, rfl⟩

abbrev nD : Nat := 1
abbrev τ : Topo := Topo.v7x

variable {F : FTy → Type} [FloatOps F]

class Facts₀ : Prop where
  bcast_S_S4x4096x4096 : S_.BroadcastsInDim S4x4096x4096 (![] : Fin 0 → Fin S4x4096x4096.rank)
  bcast_S_S4096 : S_.BroadcastsInDim S4096 (![] : Fin 0 → Fin S4096.rank)
  reducesTo_S4x4096x4096_S4x4096_d2 : S4x4096x4096.ReducesTo [2] S4x4096
  h_S_ : 0 < S_.numel
  bcast_S4x4096_S4x4096x1_0_1 : S4x4096.BroadcastsInDim S4x4096x1 (![0, 1] : Fin 2 → Fin S4x4096x1.rank)
  bcast_S_S4x4096x1 : S_.BroadcastsInDim S4x4096x1 (![] : Fin 0 → Fin S4x4096x1.rank)
  bcast_S4096_S1x1x4096_2 : S4096.BroadcastsInDim S1x1x4096 (![2] : Fin 1 → Fin S1x1x4096.rank)
  bcast_S1x1x4096_S4x4096x4096_0_1_2 : S1x1x4096.BroadcastsInDim S4x4096x4096 (![0, 1, 2] : Fin 3 → Fin S4x4096x4096.rank)
  bcast_S4x4096x1_S4x4096x4096_0_1_2 : S4x4096x1.BroadcastsInDim S4x4096x4096 (![0, 1, 2] : Fin 3 → Fin S4x4096x4096.rank)

variable [Facts₀]

class Facts : Prop extends Facts₀ where

variable [Facts]
-- ==== Proof.Spec.lean ====
/-
  Fixed-point (Q16.16) RMS normalisation, as ONE function of the argument arrays over the extended reals.

  A value v is carried as q(v) = round-half-even(v · 2^16). For a row x[b, s, ·] of 4096 entries and the scale γ:
    sq_k   = ⌊ q(x_k) · q(x_k) · 2^-16 ⌋
    rms    = ⌊ √( ⌊ (Σ_k sq_k) · 2^-12 ⌋ · 2^16 ) ⌋ + 1
    y_k    = ⌊ q(x_k) · q(γ_k) / rms ⌋ · 2^-16
  The two programs differ only in how the two scalings by a power of two are spelt: a product with the
  reciprocal 2^-16 (2^-12) on one side, a quotient by 2^16 (4096) on the other. Both reciprocals are exact
  binary values, and on the extended reals a quotient by a nonzero real IS the product with its reciprocal, at
  the infinities too; so the two spellings are one function, with no appeal to finiteness of the inputs.
-/
import Idealize.ShloMosaic.PureOps.Ideal
import Idealize.ShloMosaic.PureOps.Ideal.Laws
import Idealize.ShloMosaic.Lib.ValueIdx

noncomputable section

namespace Cert.QRms

open Idealize.ShloMosaic Idealize.ShloMosaic.ValueIdx

/-! ## The five literals, kept as their binary words -/

/-- 2^16 = 65536. -/
abbrev two16 : EReal := Ideal.ofBits .f32 0x47800000#32
/-- 2^-16, the exact reciprocal of 65536. -/
abbrev inv16 : EReal := Ideal.ofBits .f32 0x37800000#32
/-- 2^12 = 4096, the row length. -/
abbrev two12 : EReal := Ideal.ofBits .f32 0x45800000#32
/-- 2^-12, the exact reciprocal of 4096. -/
abbrev inv12 : EReal := Ideal.ofBits .f32 0x39800000#32
/-- 1, one unit in the last fixed-point place. -/
abbrev one : EReal := Ideal.ofBits .f32 0x3F800000#32

theorem two16_eq : two16 = ((65536 : ℝ) : EReal) := by
  simp [two16, Ideal.ofBits, Ideal.ieee, -EReal.coe_mul]; norm_num
theorem inv16_eq : inv16 = ((1 / 65536 : ℝ) : EReal) := by
  simp [inv16, Ideal.ofBits, Ideal.ieee, -EReal.coe_mul]; norm_num
theorem two12_eq : two12 = ((4096 : ℝ) : EReal) := by
  simp [two12, Ideal.ofBits, Ideal.ieee, -EReal.coe_mul]; norm_num
theorem inv12_eq : inv12 = ((1 / 4096 : ℝ) : EReal) := by
  simp [inv12, Ideal.ofBits, Ideal.ieee, -EReal.coe_mul]; norm_num

/-- A quotient by 2^16 is the product with 2^-16, on every extended real. -/
theorem div_two16 (a : EReal) : Ideal.div a two16 = a * inv16 := by
  rw [two16_eq, inv16_eq]; exact Ideal.div_coe (by norm_num) a
/-- A quotient by 4096 is the product with 2^-12, on every extended real. -/
theorem div_two12 (a : EReal) : Ideal.div a two12 = a * inv12 := by
  rw [two12_eq, inv12_eq]; exact Ideal.div_coe (by norm_num) a

/-! ## The scalar steps -/

/-- The floor, the infinities fixed. -/
def fl (x : EReal) : EReal := Ideal.liftRound Int.floor x
/-- Quantisation to Q16.16: v ↦ round-half-even(v · 2^16). -/
def quant (x : EReal) : EReal := Ideal.liftRound Ideal.roundHalfEven (x * two16)
/-- The square of a quantised value, shifted back to Q16.16. -/
def sq (x : EReal) : EReal := fl (quant x * quant x * inv16)
/-- The fixed-point root mean square of a row, plus one last place (it guards the quotient below). -/
def rms (row : Fin 4096 → EReal) : EReal := fl (Ideal.sqrt (fl ((∑ k, sq (row k)) * inv12) * two16)) + one
/-- One output entry from its input entry, the already-quantised scale, and its row's root mean square. -/
def out (x gq r : EReal) : EReal := fl (Ideal.div (quant x * gq) r) * inv16

/-! ## The result, at the three layouts the proof meets -/

/-- One 256-row block: entry (p, q) from the block of x and the quantised scale laid out as a row. -/
def blockAt (x0 : (⟨2, ![256, 4096]⟩ : Shape).Idx → EReal) (x1 : (⟨2, ![1, 4096]⟩ : Shape).Idx → EReal)
    (p : Fin 256) (q : Fin 4096) : EReal :=
  out (x0 (ix2 p q)) (x1 (ix2 0 q)) (rms fun k => x0 (ix2 p k))

/-- The 16384 × 4096 array the region writes, from x laid out as 16384 rows and the quantised scale. -/
def rowsAt (X : (⟨2, ![16384, 4096]⟩ : Shape).Idx → EReal) (Gq : (⟨2, ![1, 4096]⟩ : Shape).Idx → EReal)
    (r : Fin 16384) (q : Fin 4096) : EReal :=
  out (X (ix2 r q)) (Gq (ix2 0 q)) (rms fun k => X (ix2 r k))
def rows (X : (⟨2, ![16384, 4096]⟩ : Shape).Idx → EReal) (Gq : (⟨2, ![1, 4096]⟩ : Shape).Idx → EReal) :
    (⟨2, ![16384, 4096]⟩ : Shape).Idx → EReal := fun j => rowsAt X Gq (j 0) (j 1)

/-- The result: entry (b, s, q) of the [4, 4096, 4096] output from x and γ. -/
def resultAt (x : (⟨3, ![4, 4096, 4096]⟩ : Shape).Idx → EReal) (g : (⟨1, ![4096]⟩ : Shape).Idx → EReal)
    (b : Fin 4) (s : Fin 4096) (q : Fin 4096) : EReal :=
  out (x (ix3 b s q)) (quant (g (ix1 q))) (rms fun k => x (ix3 b s k))
def result (x : (⟨3, ![4, 4096, 4096]⟩ : Shape).Idx → EReal) (g : (⟨1, ![4096]⟩ : Shape).Idx → EReal) :
    (⟨3, ![4, 4096, 4096]⟩ : Shape).Idx → EReal := fun i => resultAt x g (i 0) (i 1) (i 2)

end Cert.QRms

end
-- ==== Proof.Payload.lean ====
/-
  The kernel body's stored value, read at one index (p, q) of its 256 × 4096 block, is the specification's block
  function: every operation of the body is pointwise except a row sum, a keep-dimension reshape of the row sums to a
  column, and two broadcasts (the scale's one row to every row, the per-row divisor's column to every column); each of
  the four is read at an index by one small lemma, and what is left is the scalar chain of the specification.
-/
import proofs.«125740_j1254130450889_2_alg».proof.Proof.Gen.KernelIdeal.Skeleton
import proofs.«125740_j1254130450889_2_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.QRms.Body

open Idealize.ShloMosaic Idealize.ShloMosaic.ValueIdx Cert.KernelIdeal Cert.KernelIdeal.Gen

/-! ## The one-operand pointwise operations at an index (definitional) -/

section Pointwise
variable {s : Shape} {φ : FTy}

theorem floor_apply (a : FVec Ideal s φ) (i : s.Idx) : floor a i = Ideal.liftRound Int.floor (a i) := rfl
theorem roundeven_apply (a : FVec Ideal s φ) (i : s.Idx) : roundeven a i = Ideal.liftRound Ideal.roundHalfEven (a i) := rfl
theorem sqrt_apply (a : FVec Ideal s φ) (i : s.Idx) : sqrt a i = Ideal.sqrt (a i) := rfl

end Pointwise

/-! ## The four operations that move indices -/

section Layout
variable {α : Type}

/-- A column [a, 1] broadcast to [a, b] reads, at (p, c), the column at row p. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An [a] array reshaped to the column [a, 1] reads, at (p, 0), the array at p. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

end Layout

/-- The sum along a row of a 256 × 4096 block, read at row p: the sum over the row's 4096 entries. -/
theorem rowSum_apply (v : FVec Ideal S256x4096 .f32) (h : S256x4096.Reduces [1] S256) (hφ : FTy.f32 = FTy.f32 ∨ FTy.f32 = FTy.bf16)
    (hacc : (0x00000000#32 : BitVec 32) = 0x00000000#32) (p : Fin 256) :
    multiReduction (F := Ideal) .add [1] S256 v 0x00000000#32 h hφ hacc (ix1 p) = ∑ k : Fin 4096, v (ix2 p k) := by
  refine (Ideal.multiReduction_add_single v 0x00000000#32 h hφ hacc (ix1 p)).trans ?_
  show ∑ k : Fin 4096, v (h.lift (ix1 p) k) = ∑ k : Fin 4096, v (ix2 p k)
  refine Finset.sum_congr rfl fun k _ => congrArg v ?_
  funext c
  match c with
  | ⟨0, _⟩ => rfl
  | ⟨1, _⟩ => rfl

/-! ## The payload at an index -/

/-- The kernel body's stored value at (p, q) is the specification's block function there. -/
theorem pay_apply (x0 : Vec Ideal Cert.KernelIdeal.S256x4096 .f32) (x1 : Vec Ideal Cert.KernelIdeal.S1x4096 .f32)
    (p : Fin 256) (q : Fin 4096) :
    Cert.KernelIdeal.Gen.k0_pay1 (F := Ideal) x0 x1 (ix2 p q) = Cert.QRms.blockAt x0 x1 p q := by
  unfold Cert.KernelIdeal.Gen.k0_pay1
  simp only [shapeCast_self, mulf_apply, addf_apply, divf_apply, broadcast_apply, floor_apply, roundeven_apply, sqrt_apply,
    broadcastTo_1b_ab_apply, broadcastTo_a1_ab_apply, shapeCast_a_a1_apply, rowSum_apply, Ideal.ofBits_def]
  rw [rowSum_apply]
  simp only [mulf_apply, broadcast_apply, floor_apply, roundeven_apply]
  rfl

end Cert.QRms.Body

end
-- ==== Proof.Layout.lean ====
/-
  The layout step. The [4, 4096, 4096] argument is read as 16384 rows of 4096 entries (row b·4096 + s is the
  row (b, s)), every row is mapped by the specification's row function, and the rows are read back as
  [4, 4096, 4096]. A reshape keeps the row-major position of every entry, and (b·4096 + s)·4096 + q is the
  row-major position of (b, s, q) in both layouts; so the composite is the specification's result, entry by
  entry. The scale γ, laid out as one row of 4096 entries, multiplied by 2^16 and rounded half-even, is the
  quantised scale q(γ_k) at entry k.
-/
import proofs.«125740_j1254130450889_2_alg».proof.KernelIdeal
import proofs.«125740_j1254130450889_2_alg».proof.Proof.Spec
import Idealize.ShloMosaic.Lib.ValueIdx
import Idealize.ShloMosaic.Lib.Pipeline.Value
import Idealize.ShloMosaic.PureOps.Ideal.Laws

noncomputable section

namespace Cert.QRms.Layout

open Idealize.ShloMosaic Idealize.ShloMosaic.ValueIdx Cert.KernelIdeal

/-- The argument read as 16384 rows: entry (b·4096 + s, k) of the reshaped array is entry (b, s, k) of x. -/
theorem cast_rows_apply (x : S4x4096x4096.Idx → EReal) (h0 : S4x4096x4096.ShapeCasts S16384x4096)
    (b : Fin 4) (s : Fin 4096) (k : Fin 4096) (r : Fin 16384) (hr : r.val = b.val * 4096 + s.val) :
    shapeCast S16384x4096 x h0 (ix2 r k) = x (ix3 b s k) :=
  shapeCast_apply x h0 _ _ (by
    rw [Shape.rowMajor_val_three, Shape.rowMajor_val_two]
    show (b.val * 4096 + s.val) * 4096 + k.val = r.val * 4096 + k.val
    rw [hr])

/-- Reshape to rows, the row function on every row with the quantised scale, reshape back: the result. -/
theorem layout_eq (x : S4x4096x4096.Idx → EReal) (g : S4096.Idx → EReal)
    (h0 : S4x4096x4096.ShapeCasts S16384x4096) (h1 : S4096.ShapeCasts S1x4096)
    (hb : S_.BroadcastsInDim S1x4096 (![] : Fin 0 → Fin S1x4096.rank)) (h6 : S16384x4096.ShapeCasts S4x4096x4096) :
    shapeCast S4x4096x4096
        (Cert.QRms.rows (shapeCast S16384x4096 x h0)
          (Host.roundeven (F := Ideal) (mulf (shapeCast S1x4096 g h1) (broadcastInDim S1x4096 ![] hb (constant (F := Ideal) S_ .f32 0x47800000#32))))) h6
      = Cert.QRms.result x g := by
  funext i
  obtain ⟨b, s, q, rfl⟩ : ∃ (b : Fin 4) (s : Fin 4096) (q : Fin 4096), i = ix3 b s q := ⟨i 0, i 1, i 2, eq_ix3 i⟩
  have hb4 : b.val < 4 := b.isLt
  have hs4 : s.val < 4096 := s.isLt
  let r : Fin 16384 := ⟨b.val * 4096 + s.val, by omega⟩
  have hr : r.val = b.val * 4096 + s.val := rfl
  -- the outer reshape at (b, s, q) reads the rows array at (b·4096 + s, q)
  refine (shapeCast_apply _ h6 (ix3 b s q) (ix2 r q) (by
    rw [Shape.rowMajor_val_three, Shape.rowMajor_val_two]
    show r.val * 4096 + q.val = (b.val * 4096 + s.val) * 4096 + q.val
    rw [hr])).trans ?_
  show Cert.QRms.rowsAt _ _ r q = Cert.QRms.resultAt x g b s q
  unfold Cert.QRms.rowsAt Cert.QRms.resultAt
  have hx : ∀ k : Fin 4096, shapeCast S16384x4096 x h0 (ix2 r k) = x (ix3 b s k) :=
    fun k => cast_rows_apply x h0 b s k r hr
  have hg1 : shapeCast S1x4096 g h1 (ix2 (0 : Fin 1) q) = g (ix1 q) :=
    shapeCast_apply g h1 _ _ (by
      rw [Shape.rowMajor_val_one, Shape.rowMajor_val_two]
      show q.val = 0 * 4096 + q.val
      omega)
  have hc : broadcastInDim S1x4096 ![] hb (constant (F := Ideal) S_ .f32 0x47800000#32) (ix2 (0 : Fin 1) q)
      = Cert.QRms.two16 := rfl
  have hg : Host.roundeven (F := Ideal) (mulf (shapeCast S1x4096 g h1)
        (broadcastInDim S1x4096 ![] hb (constant (F := Ideal) S_ .f32 0x47800000#32))) (ix2 (0 : Fin 1) q)
      = Cert.QRms.quant (g (ix1 q)) := by
    show Ideal.liftRound Ideal.roundHalfEven (shapeCast S1x4096 g h1 (ix2 (0 : Fin 1) q)
        * broadcastInDim S1x4096 ![] hb (constant (F := Ideal) S_ .f32 0x47800000#32) (ix2 (0 : Fin 1) q))
      = Ideal.liftRound Ideal.roundHalfEven (g (ix1 q) * Cert.QRms.two16)
    rw [hg1, hc]
  exact congr (congr (congrArg Cert.QRms.out (hx q)) hg) (congrArg Cert.QRms.rms (funext hx))

end Cert.QRms.Layout

end
-- ==== Proof.Region.lean ====
/-
  What the kernel's program leaves in its result, as one function of the two argument arrays.

  The region works on x laid out as 16384 rows of 4096 entries, 256 rows to a grid point (64 points), with the
  quantised scale as one row of 4096 that every point reads whole. A point's block holds whole rows, so a row's sum of
  squares is taken inside the block: what point t writes back is rows 256·t … 256·t + 255 of ONE function of the whole
  arrays (the specification's `rows`), and the 64 blocks tile the 16384 rows. Around the region the program only
  changes layouts — x reshaped to rows before it, the scale reshaped to a row and quantised, the rows reshaped back to
  [4, 4096, 4096] after it — so the result is the specification's `result` of the arguments.
-/
import proofs.«125740_j1254130450889_2_alg».proof.Proof.Gen.KernelIdeal.Frame
import proofs.«125740_j1254130450889_2_alg».proof.Proof.Spec
import proofs.«125740_j1254130450889_2_alg».proof.Proof.Payload
import proofs.«125740_j1254130450889_2_alg».proof.Proof.Layout
import Idealize.ShloMosaic.Lib.Pipeline.Value
import Idealize.ShloMosaic.Lib.ValueIdx
import Idealize.ShloMosaic.Lib.StableHlo.Run

set_option maxRecDepth 16384

noncomputable section

namespace Cert.QRms.Region

open Idealize.ShloMosaic Idealize.ShloMosaic.TcCoe Idealize.SL.Sem Idealize.ShloMosaic.ValueIdx
open Idealize.ShloMosaic.Pipeline (Dat Cfg Window)
open Cert.KernelIdeal Cert.KernelIdeal.Gen Cert.QRms

variable (m : (ℓ : Loc nD τ sig) → Buf (Elt Ideal) ℓ) (ρ : Dev nD → PrngReg)

/-! ## One block -/

theorem zero_offsets : (![0, 0] : Fin 2 → Nat) = fun _ => 0 := funext fun a => by fin_cases a <;> rfl

/-- Where each window's block sits at grid point t: the blocks of x and of the output are block t along the rows
    and block 0 along the columns; the scale's one block never moves. -/
theorem block_indices : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- A block x0 holding rows 256·T … 256·T + 255 of the array X, beside the scale row as it is: the body's value at
    an entry of the block is the row function of the whole array at that entry's place. The row sum inside the block
    runs over the same 4096 entries as the row of X, because the block holds whole rows. -/
theorem block_rows (X : S16384x4096.Idx → EReal) (Gq : S1x4096.Idx → EReal)
    (x0 : Vec Ideal S256x4096 .f32) (x1 : Vec Ideal S1x4096 .f32) (T : Nat)
    (h0 : ∀ (y : S256x4096.Idx) (i : S16384x4096.Idx), (i 0).val = T * 256 + (y 0).val → (i 1).val = (y 1).val → x0 y = X i)
    (h1 : ∀ y : S1x4096.Idx, x1 y = Gq y)
    (y : S256x4096.Idx) (i : S16384x4096.Idx) (hi0 : (i 0).val = T * 256 + (y 0).val) (hi1 : (i 1).val = (y 1).val) :
    k0_pay1 (F := Ideal) x0 x1 y = rows X Gq i := by
  obtain ⟨p, q, rfl⟩ : ∃ (p : Fin 256) (q : Fin 4096), y = ix2 p q := ⟨y 0, y 1, eq_ix2 y⟩
  obtain ⟨r, q', rfl⟩ : ∃ (r : Fin 16384) (q' : Fin 4096), i = ix2 r q' := ⟨i 0, i 1, eq_ix2 i⟩
  have hr : r.val = T * 256 + p.val := hi0
  have hq : q' = q := Fin.ext hi1
  subst hq
  rw [Cert.QRms.Body.pay_apply]
  unfold blockAt rows rowsAt
  show out (x0 (ix2 p q')) (x1 (ix2 0 q')) (rms fun k => x0 (ix2 p k)) = out (X (ix2 r q')) (Gq (ix2 0 q')) (rms fun k => X (ix2 r k))
  rw [h0 (ix2 p q') (ix2 r q') hr rfl, h1 (ix2 0 q')]
  exact congrArg (out _ _) (congrArg rms (funext fun k => h0 (ix2 p k) (ix2 r k) hr rfl))

/-- What grid point t writes back is block t of `rows` of the two arrays as the region finds them. -/
theorem flushed_eq (c : Dev nD) (t : Fin cfg0.N) :
    (dats m 0 c).flushed 2 t = ((cfg0.win 2).blk t).view.read (Elt Ideal) (rows (V m c main_v0) (V m c main_v4)) := by
  show (cfg0.win 2).cut (grid0.coords t) ((dats m 0 c).after 2 t) = _
  rw [after0_2]
  unfold out0_2
  rw [View.canon_unit_zero zero_offsets]
  simp only [View.ld_unit_zero (S := S256x4096) zero_offsets, View.ld_unit_zero (S := S1x4096) zero_offsets]
  obtain ⟨e0, e1, e2, e3, e4, e5⟩ := block_indices t
  funext j
  show k0_pay1 (iblk m c 0 t) (iblk m c 1 t) j = rows (V m c main_v0) (V m c main_v4) (((cfg0.win 2).blk t).view.emb j)
  refine block_rows (V m c main_v0) (V m c main_v4) (iblk m c 0 t) (iblk m c 1 t) t.val ?_ ?_ j _ ?_ ?_
  · -- the block of x at point t is rows 256·t … of the array
    intro y i hi0 hi1
    show V m c main_v0 (((cfg0.win 0).blk t).view.emb y) = V m c main_v0 i
    refine congrArg (V m c main_v0) (funext fun a => Fin.ext ?_)
    match a with
    | ⟨0, _⟩ => show win0_0.index t (0 : Fin 2) * 256 + 1 * (y 0).val = (i 0).val; omega
    | ⟨1, _⟩ => show win0_0.index t (1 : Fin 2) * 4096 + 1 * (y 1).val = (i 1).val; omega
  · -- the scale's block is the whole scale row
    intro y
    show V m c main_v4 (((cfg0.win 1).blk t).view.emb y) = V m c main_v4 y
    refine congrArg (V m c main_v4) (funext fun a => Fin.ext ?_)
    match a with
    | ⟨0, _⟩ => show win0_1.index t (0 : Fin 2) * 1 + 1 * (y 0).val = (y 0).val; omega
    | ⟨1, _⟩ => show win0_1.index t (1 : Fin 2) * 4096 + 1 * (y 1).val = (y 1).val; omega
  · show win0_2.index t (0 : Fin 2) * 256 + 1 * (j 0).val = t.val * 256 + (j 0).val; omega
  · show win0_2.index t (1 : Fin 2) * 4096 + 1 * (j 1).val = (j 1).val; omega

/-! ## The 64 blocks tile the array -/

/-- An entry of the array is in point t's block iff each coordinate is in the block's range on its axis. -/
theorem mem_block (t : Fin cfg0.N) (i : S16384x4096.Idx) :
    i ∈ ((cfg0.win 2).blk t).view.set ↔ ∀ a : Fin 2, win0_2.index t a * S256x4096.size a ≤ (i a).val ∧ (i a).val < win0_2.index t a * S256x4096.size a + S256x4096.size a := by
  show i ∈ ((View.whole main_v5).slice (win0_2.rect t)).set ↔ _
  rw [View.set_slice_whole, Rect.mem_set_unit]
  exact Iff.rfl

/-- Row r lies in the block of point ⌊r / 256⌋, which is written back. -/
theorem blocks_cover (i : S16384x4096.Idx) : ∃ t : Fin cfg0.N, (cfg0.win 2).flush t = true ∧ i ∈ ((cfg0.win 2).blk t).view.set := by
  have hi0 : (i 0).val < 16384 := (i 0).isLt
  have hi1 : (i 1).val < 4096 := (i 1).isLt
  have hN : grid0.N = 64 := N_0
  have hlt : (i 0).val / 256 < grid0.N := by rw [hN]; omega
  obtain ⟨-, -, -, -, e4, e5⟩ := block_indices ⟨(i 0).val / 256, hlt⟩
  have e4' : win0_2.index ⟨(i 0).val / 256, hlt⟩ (0 : Fin 2) = (i 0).val / 256 := e4
  refine ⟨⟨(i 0).val / 256, hlt⟩, flush0_2 _, ?_⟩
  rw [mem_block]
  intro a
  match a with
  | ⟨0, _⟩ => show win0_2.index ⟨(i 0).val / 256, hlt⟩ (0 : Fin 2) * 256 ≤ (i 0).val ∧ (i 0).val < win0_2.index ⟨(i 0).val / 256, hlt⟩ (0 : Fin 2) * 256 + 256; omega
  | ⟨1, _⟩ => show win0_2.index ⟨(i 0).val / 256, hlt⟩ (1 : Fin 2) * 4096 ≤ (i 1).val ∧ (i 1).val < win0_2.index ⟨(i 0).val / 256, hlt⟩ (1 : Fin 2) * 4096 + 4096; omega

/-- The region's output array after the last point: `rows` of the two arrays as the region finds them. -/
theorem region_output (c : Dev nD) : (dats m 0 c).arrAt 2 cfg0.N = rows (V m c main_v0) (V m c main_v4) :=
  (dats m 0 c).arrAt_eq_of_cover 2 _ (fun t _ => flushed_eq m c t) blocks_cover

/-! ## The layout changes around the region -/

/-- The region finds x reshaped to 16384 rows. -/
theorem x_as_rows (c : Dev nD) : (V m c main_v0 : S16384x4096.Idx → EReal)
    = shapeCast S16384x4096 (m ((c : Thread nD τ).loc main_arg0)) shapeCasts_S4x4096x4096_S16384x4096 := by
  dsimp only [Gen.V, Gen.V0]
  simp only [Gen.hostOps0, Gen.hostOps0_1, List.flatten_cons, List.flatten_nil, List.append_nil, List.cons_append, List.nil_append]
  after_results
  rfl

/-- The region finds the scale reshaped to one row, multiplied by 2^16 and rounded: quantised. -/
theorem scale_as_row (c : Dev nD) : (V m c main_v4 : S1x4096.Idx → EReal)
    = Host.roundeven (F := Ideal) (mulf (shapeCast S1x4096 (m ((c : Thread nD τ).loc main_arg1)) shapeCasts_S4096_S1x4096)
        (broadcastInDim S1x4096 ![] bcast_S_S1x4096 (constant (F := Ideal) S_ .f32 0x47800000#32))) := by
  dsimp only [Gen.V, Gen.V0]
  simp only [Gen.hostOps0, Gen.hostOps0_1, List.flatten_cons, List.flatten_nil, List.append_nil, List.cons_append, List.nil_append]
  after_results
  rfl

/-- After the region the rows are reshaped back to [4, 4096, 4096]. -/
theorem rows_reshaped (c : Dev nD) : (Pipeline.afterTail₀ cfgs (dats m) 0 (V0 m) [hostOps1] c main_v6 : S4x4096x4096.Idx → EReal)
    = shapeCast S4x4096x4096 (rows (V m c main_v0) (V m c main_v4)) shapeCasts_S16384x4096_S4x4096x4096 := by
  unfold Pipeline.afterTail₀
  show StableHlo.after hostOps1 _ (Proc.devRef .tc main_v6) = _
  after_results
  have hw : Pipeline.withArrays (cfgs 0).spec c (V0 m c) (fun w => (dats m 0 c).arrAt w (cfgs 0).N) (Proc.devRef .tc main_v5)
      = rows (V m c main_v0) (V m c main_v4) :=
    (Pipeline.withArrays_arr spec0 launch0.win.arr_inj c _ _ 2).trans (region_output m c)
  rw [hw]
  rfl

/-- The program's result is the specification's result of its two arguments. -/
theorem result_eq (c : Dev nD) : Pipeline.afterTail₀ cfgs (dats m) 0 (V0 m) [hostOps1] c main_v6
    = result (m ((c.tc : Thread nD τ).loc main_arg0)) (m ((c.tc : Thread nD τ).loc main_arg1)) := by
  refine (rows_reshaped m c).trans ?_
  rw [x_as_rows, scale_as_row]
  exact Cert.QRms.Layout.layout_eq _ _ _ _ _ _

/-! ## The run -/

/-- Every weakly fair execution of the idealized kernel's program ends with its result at the specification's
    result of the arguments, and the arguments unchanged. -/
theorem run : θ_run (defs (F := Ideal)) (onTc (τ := τ) (main (F := Ideal))) ⟨m, fun _ => 0, ρ⟩ fun r => ∀ c : Dev nD,
      r.2.mem ((c.tc : Thread nD τ).loc main_v6) = result (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c =>
      ⟨((h c).2 main_v6 (Pipeline.mem_restRefs_of main_v6 (by decide) (by decide))).trans (result_eq m c),
       ((h c).2 main_arg0 (Pipeline.mem_restRefs_of main_arg0 (by decide) (by decide))).trans (W_main_arg0 m (dats m) c),
       ((h c).2 main_arg1 (Pipeline.mem_restRefs_of main_arg1 (by decide) (by decide))).trans (W_main_arg1 m (dats m) c)⟩)
    (run_main m ρ)

end Cert.QRms.Region

end
-- ==== Proof.RefIsSpec.lean ====
/-
  The reference program's value, read entry by entry, is the specification's result.

  Each stage of the reference is read at an index: the quantised entries, the shifted squares, the row sum (whose
  zero initial value drops), the root mean square of the row, and the output entry. The reference spells its three
  scalings by a power of two as quotients by 2^16 (twice) and by 4096 (once); on the extended reals each is the
  product with the exact reciprocal, which is how the specification spells them.
-/
import proofs.«125740_j1254130450889_2_alg».proof.Proof.Gen.ReferenceIdeal.Read
import proofs.«125740_j1254130450889_2_alg».proof.Proof.Spec
import Idealize.ShloMosaic.Lib.ValueIdx
import Idealize.ShloMosaic.PureOps.Ideal.Laws

noncomputable section

namespace Cert.QRms.Ref

open Cert.ReferenceIdeal Cert.ReferenceIdeal.Read Idealize.ShloMosaic Idealize.ShloMosaic.ValueIdx

/-- The reference's quantised input entry: round-half-even of the entry times 2^16. -/
theorem v2_at (x : S4x4096x4096.Idx → EReal) (i : S4x4096x4096.Idx) :
    val_main_v2 (F := Ideal) x i = quant (x i) := by
  rw [val_main_v2_apply, val_main_v1_apply, val_main_v0_apply, val_main_cst_apply]
  rfl

/-- The reference's quantised scale entry. -/
theorem v5_at (g : S4096.Idx → EReal) (i : S4096.Idx) :
    val_main_v5 (F := Ideal) g i = quant (g i) := by
  rw [val_main_v5_apply, val_main_v4_apply, val_main_v3_apply, val_main_cst_0_apply]
  rfl

/-- The reference's shifted square: its quotient by 2^16 is the product with 2^-16. -/
theorem v9_at (x : S4x4096x4096.Idx → EReal) (i : S4x4096x4096.Idx) :
    val_main_v9 (F := Ideal) x i = sq (x i) := by
  rw [val_main_v9_apply, val_main_v8_apply, val_main_v7_apply, val_main_cst_1_apply, val_main_v6_apply, v2_at]
  simp only [Ideal.hostUnary_floor_def, Ideal.hostDivf_def, Ideal.mulf_def, Ideal.ofBits_def]
  rw [div_two16]
  rfl

/-- The reference's row sum: the zero initial value drops and the summands are the shifted squares of the row. -/
theorem v10_at (x : S4x4096x4096.Idx → EReal) (i : S4x4096.Idx) :
    val_main_v10 (F := Ideal) x i = ∑ k : Fin 4096, sq (x (ix3 (i 0) (i 1) k)) := by
  rw [val_main_v10_apply, val_main_cst_2_apply]
  simp only [Ideal.ofBits_def, Ideal.ofBits_zero_f32, zero_add]
  refine Finset.sum_congr rfl fun k _ => ?_
  rw [v9_at]
  refine congrArg (fun j => sq (x j)) ?_
  exact funext fun a => Fin.ext (by match a with | ⟨0, _⟩ => rfl | ⟨1, _⟩ => rfl | ⟨2, _⟩ => rfl)

/-- The reference's root mean square of a row: its quotient by 4096 is the product with 2^-12. -/
theorem v20_at (x : S4x4096x4096.Idx → EReal) (i : S4x4096x1.Idx) :
    val_main_v20 (F := Ideal) x i = rms fun k => x (ix3 (i 0) (i 1) k) := by
  rw [val_main_v20_apply, val_main_v19_apply, val_main_cst_5_apply, val_main_v18_apply, val_main_v17_apply,
    val_main_v16_apply, val_main_v15_apply, val_main_cst_4_apply, val_main_v14_apply, val_main_v13_apply,
    val_main_v12_apply, val_main_cst_3_apply, val_main_v11_apply, v10_at]
  simp only [Ideal.hostUnary_floor_def, Ideal.hostUnary_sqrt_def, Ideal.hostDivf_def, Ideal.mulf_def, Ideal.addf_def,
    Ideal.ofBits_def]
  rw [div_two12]
  rfl

/-- The reference's value is the specification. -/
theorem ref_eq (x : (⟨Cert.ReferenceIdeal.S4x4096x4096, .f32⟩ : BufTy).Contents (Elt Ideal))
    (g : (⟨Cert.ReferenceIdeal.S4096, .f32⟩ : BufTy).Contents (Elt Ideal)) :
    Cert.ReferenceIdeal.Read.val_main_v28 (F := Ideal) x g = Cert.QRms.result x g := by
  funext i
  obtain ⟨b, s, q, rfl⟩ : ∃ (b : Fin 4) (s : Fin 4096) (q : Fin 4096), i = ix3 b s q := ⟨i 0, i 1, i 2, eq_ix3 i⟩
  rw [val_main_v28_apply, val_main_v27_apply, val_main_cst_6_apply, val_main_v26_apply, val_main_v25_apply,
    val_main_v24_apply, v20_at, val_main_v23_apply, val_main_v22_apply, val_main_v21_apply, v5_at, v2_at]
  simp only [Ideal.hostUnary_floor_def, Ideal.hostDivf_def, Ideal.mulf_def, Ideal.ofBits_def]
  rw [div_two16]
  have hq : idx_main_v21 (idx_main_v22 (ix3 b s q)) = ix1 q :=
    funext fun a => Fin.ext (by match a with | ⟨0, _⟩ => rfl)
  rw [hq]
  rfl

end Cert.QRms.Ref

end
-- ==== Proof.lean ====
/-
  The idealized kernel and the idealized reference compute one function of (x, γ) over the extended reals: the
  Q16.16 fixed-point RMS normalisation of Proof/Spec.lean, entry by entry. The kernel's program reaches it block by
  block (Proof/Payload.lean: the body's value at an entry; Proof/Region.lean: the 64 blocks tile the rows, and the
  layout changes around the region; Proof/Layout.lean: rows and the [4, 4096, 4096] array are one array read two
  ways), the reference operation by operation (Proof/RefIsSpec.lean). The two spell their scalings by a power of two
  differently — a product with the exact reciprocal against a quotient — and those agree on every extended real, so
  the finiteness of the inputs is never used. The three frames are the generated ones (the reference's: its
  generated run with the result dropped); the idealization rewrote nothing, so `preserves` is trivial.
-/
import proofs.«125740_j1254130450889_2_alg».proof.Defs
import proofs.«125740_j1254130450889_2_alg».proof.Proof.Gen.Kernel
import proofs.«125740_j1254130450889_2_alg».proof.Proof.Gen.Kernel.Skeleton
import proofs.«125740_j1254130450889_2_alg».proof.Proof.Gen.Kernel.Launch
import proofs.«125740_j1254130450889_2_alg».proof.Proof.Gen.Kernel.Points
import proofs.«125740_j1254130450889_2_alg».proof.Proof.Gen.Kernel.Frame
import proofs.«125740_j1254130450889_2_alg».proof.Proof.Gen.KernelIdeal
import proofs.«125740_j1254130450889_2_alg».proof.Proof.Gen.KernelIdeal.Skeleton
import proofs.«125740_j1254130450889_2_alg».proof.Proof.Gen.KernelIdeal.Launch
import proofs.«125740_j1254130450889_2_alg».proof.Proof.Gen.KernelIdeal.Points
import proofs.«125740_j1254130450889_2_alg».proof.Proof.Gen.KernelIdeal.Frame
import proofs.«125740_j1254130450889_2_alg».proof.Proof.Gen.ReferenceIdeal
import proofs.«125740_j1254130450889_2_alg».proof.Proof.Gen.Pre_finite_inputs
import proofs.«125740_j1254130450889_2_alg».proof.Proof.Gen.ReferenceIdeal.Read
import proofs.«125740_j1254130450889_2_alg».proof.Proof.Region
import proofs.«125740_j1254130450889_2_alg».proof.Proof.RefIsSpec
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ
theorem frame_kernelIdeal : Cert.frame_KernelIdeal := fun m ρ _ => Cert.KernelIdeal.Gen.frame m ρ
/-- The reference launches no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on x and γ both programs end at the specification's result of (x, γ). -/
theorem algebraic : Cert.algebraic_KernelIdeal_ReferenceIdeal := by
  intro m ρ m' ρ' _ hagree
  refine ⟨fun c => Cert.QRms.result (m ((c.tc : Thread Cert.KernelIdeal.nD Cert.KernelIdeal.τ).loc Cert.KernelIdeal.main_arg0))
      (m ((c.tc : Thread Cert.KernelIdeal.nD Cert.KernelIdeal.τ).loc Cert.KernelIdeal.main_arg1)), Cert.QRms.Region.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v28_eq, Cert.QRms.Ref.ref_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
